-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : FVec F S4000000x5 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x5 : Shape := ⟨2, ![4000000, 5]⟩
abbrev S5x4000000 : Shape := ⟨2, ![5, 4000000]⟩
abbrev S1x4000000 : Shape := ⟨2, ![1, 4000000]⟩
abbrev S5x160000 : Shape := ⟨2, ![5, 160000]⟩
abbrev S1x160000 : Shape := ⟨2, ![1, 160000]⟩
abbrev S160000 : Shape := ⟨1, ![160000]⟩
abbrev S4000000 : Shape := ⟨1, ![4000000]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S5x4000000, .f32⟩
  | .hbm, ⟨3, _⟩ => ⟨S5x4000000, .f32⟩
  | .hbm, ⟨4, _⟩ => ⟨S1x4000000, .f32⟩
  | .hbm, ⟨5, _⟩ => ⟨S1x4000000, .f32⟩
  | .hbm, ⟨6, _⟩ => ⟨S4000000, .f32⟩
  | .hbm, ⟨7, _⟩ => ⟨S4000000, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S5x160000, .f32⟩
  | .local _ .vmem, ⟨1, _⟩ => ⟨S5x160000, .f32⟩
  | .local _ .vmem, ⟨2, _⟩ => ⟨S5x160000, .f32⟩
  | .local _ .vmem, ⟨3, _⟩ => ⟨S5x160000, .f32⟩
  | .local _ .vmem, ⟨4, _⟩ => ⟨S1x160000, .f32⟩
  | .local _ .vmem, ⟨5, _⟩ => ⟨S1x160000, .f32⟩
  | .local _ .vmem, ⟨6, _⟩ => ⟨S1x160000, .f32⟩
  | .local _ .vmem, ⟨7, _⟩ => ⟨S1x160000, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x160000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4000000x5_S5x4000000_1_0 : S4000000x5.Transposes [1, 0] S5x4000000
  inb_S5x160000_S1x160000_0_0 : ∀ a, (![0, 0] : Fin 2 → Nat) a + S1x160000.size a ≤ S5x160000.size a
  h_S1x160000 : 0 < S1x160000.numel
  shapeCasts_S1x160000_S160000 : S1x160000.ShapeCasts S160000
  inb_S5x160000_S1x160000_1_0 : ∀ a, (![1, 0] : Fin 2 → Nat) a + S1x160000.size a ≤ S5x160000.size a
  inb_S5x160000_S1x160000_2_0 : ∀ a, (![2, 0] : Fin 2 → Nat) a + S1x160000.size a ≤ S5x160000.size a
  inb_S5x160000_S1x160000_3_0 : ∀ a, (![3, 0] : Fin 2 → Nat) a + S1x160000.size a ≤ S5x160000.size a
  inb_S5x160000_S1x160000_4_0 : ∀ a, (![4, 0] : Fin 2 → Nat) a + S1x160000.size a ≤ S5x160000.size a
  inb_S1x160000_S1x160000_0_0 : ∀ a, (![0, 0] : Fin 2 → Nat) a + S1x160000.size a ≤ S1x160000.size a
  shapeCasts_S160000_S1x160000 : S160000.ShapeCasts S1x160000
  shapeCasts_S1x4000000_S4000000 : S1x4000000.ShapeCasts S4000000
  reducesTo_S4000000_S_d0 : S4000000.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x160000.size a ≤ S5x4000000.size a
  hwx0_0 : ∀ i : grid0.Coords, EltTy.bits .f32 = 32 ∨ (Rect.block (s := S5x4000000) S5x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x160000.size a ≤ S5x4000000.size a
  hwx0_1 : ∀ i : grid0.Coords, EltTy.bits .f32 = 32 ∨ (Rect.block (s := S5x4000000) S5x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x4000000.size a
  hwx0_2 : ∀ i : grid0.Coords, EltTy.bits .f32 = 32 ∨ (Rect.block (s := S1x4000000) S1x160000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x160000.size a ≤ S1x4000000.size a
  hwx0_3 : ∀ i : grid0.Coords, EltTy.bits .f32 = 32 ∨ (Rect.block (s := S1x4000000) S1x160000.size (cc0_transform_3 i) (hinb0_3 i)).WholeWords (EltTy.packing .f32)

variable [Facts₀]

abbrev win0_0 : Pipeline.Window sig grid0 :=
  Pipeline.Window.ofSpec (Memref.whole main_v0) S5x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x160000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x160000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000x2 : Shape := ⟨2, ![4000000, 2]⟩
abbrev S_ : Shape := ⟨0, ![]⟩
abbrev S4000000x1 : Shape := ⟨2, ![4000000, 1]⟩
abbrev S4000000 : Shape := ⟨1, ![4000000]⟩

abbrev nBuf : Space → Nat
  | .hbm => 200
  | .vmem => 0
  | .smem => 0
  | _ => 0

abbrev hbmTy0_0 (i : Nat) : BufTy := match i % 128 with
  | 0 => ⟨S4000000x5, .f32⟩
  | 1 => ⟨S4000000x5, .f32⟩
  | 2 => ⟨S4000000x2, .f32⟩
  | 3 => ⟨S4000000x2, .f32⟩
  | 4 => ⟨S_, .f32⟩
  | 5 => ⟨S_, .f32⟩
  | 6 => ⟨S_, .f32⟩
  | 7 => ⟨S4000000x2, .f32⟩
  | 8 => ⟨S4000000x2, .f32⟩
  | 9 => ⟨S_, .f32⟩
  | 10 => ⟨S4000000x2, .f32⟩
  | 11 => ⟨S4000000x2, .f32⟩
  | 12 => ⟨S4000000x1, .f32⟩
  | 13 => ⟨S4000000, .f32⟩
  | 14 => ⟨S4000000x1, .f32⟩
  | 15 => ⟨S4000000, .f32⟩
  | 16 => ⟨S_, .f32⟩
  | 17 => ⟨S4000000, .f32⟩
  | 18 => ⟨S4000000, .f32⟩
  | 19 => ⟨S4000000, .f32⟩
  | 20 => ⟨S4000000x1, .f32⟩
  | 21 => ⟨S4000000, .f32⟩
  | 22 => ⟨S_, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000x2, .f32⟩
  | 42 => ⟨S4000000x2, .f32⟩
  | 43 => ⟨S_, .f32⟩
  | 44 => ⟨S_, .f32⟩
  | 45 => ⟨S_, .f32⟩
  | 46 => ⟨S4000000x2, .f32⟩
  | 47 => ⟨S4000000x2, .f32⟩
  | 48 => ⟨S_, .f32⟩
  | 49 => ⟨S4000000x2, .f32⟩
  | 50 => ⟨S4000000x2, .f32⟩
  | 51 => ⟨S4000000x1, .f32⟩
  | 52 => ⟨S4000000, .f32⟩
  | 53 => ⟨S4000000x1, .f32⟩
  | 54 => ⟨S4000000, .f32⟩
  | 55 => ⟨S_, .f32⟩
  | 56 => ⟨S4000000, .f32⟩
  | 57 => ⟨S4000000, .f32⟩
  | 58 => ⟨S4000000, .f32⟩
  | 59 => ⟨S4000000x1, .f32⟩
  | 60 => ⟨S4000000, .f32⟩
  | 61 => ⟨S_, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000x1, .f32⟩
  | 88 => ⟨S4000000, .f32⟩
  | 89 => ⟨S4000000x1, .f32⟩
  | 90 => ⟨S4000000, .f32⟩
  | 91 => ⟨S4000000, .f32⟩
  | 92 => ⟨S4000000x1, .f32⟩
  | 93 => ⟨S4000000, .f32⟩
  | 94 => ⟨S4000000x1, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S_, .f32⟩
  | 109 => ⟨S4000000, .f32⟩
  | 110 => ⟨S4000000, .f32⟩
  | 111 => ⟨S4000000, .f32⟩
  | 112 => ⟨S4000000x1, .f32⟩
  | 113 => ⟨S4000000, .f32⟩
  | 114 => ⟨S4000000x1, .f32⟩
  | 115 => ⟨S4000000, .f32⟩
  | 116 => ⟨S4000000, .f32⟩
  | 117 => ⟨S4000000x1, .f32⟩
  | 118 => ⟨S4000000, .f32⟩
  | 119 => ⟨S4000000x1, .f32⟩
  | 120 => ⟨S4000000, .f32⟩
  | 121 => ⟨S4000000, .f32⟩
  | 122 => ⟨S4000000, .f32⟩
  | 123 => ⟨S4000000, .f32⟩
  | 124 => ⟨S4000000, .f32⟩
  | 125 => ⟨S4000000, .f32⟩
  | 126 => ⟨S4000000, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000, .f32⟩
  | 5 => ⟨S4000000, .f32⟩
  | 6 => ⟨S4000000, .f32⟩
  | 7 => ⟨S4000000, .f32⟩
  | 8 => ⟨S4000000, .f32⟩
  | 9 => ⟨S4000000, .f32⟩
  | 10 => ⟨S4000000, .f32⟩
  | 11 => ⟨S4000000, .f32⟩
  | 12 => ⟨S4000000, .f32⟩
  | 13 => ⟨S4000000, .f32⟩
  | 14 => ⟨S4000000, .f32⟩
  | 15 => ⟨S4000000, .f32⟩
  | 16 => ⟨S4000000, .f32⟩
  | 17 => ⟨S4000000, .f32⟩
  | 18 => ⟨S4000000, .f32⟩
  | 19 => ⟨S4000000, .f32⟩
  | 20 => ⟨S4000000, .f32⟩
  | 21 => ⟨S4000000, .f32⟩
  | 22 => ⟨S4000000, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S_, .f32⟩
  | 36 => ⟨S4000000, .f32⟩
  | 37 => ⟨S4000000, .i1⟩
  | 38 => ⟨S_, .f32⟩
  | 39 => ⟨S_, .f32⟩
  | 40 => ⟨S4000000, .f32⟩
  | 41 => ⟨S4000000, .f32⟩
  | 42 => ⟨S4000000, .f32⟩
  | 43 => ⟨S_, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S4000000, .f32⟩
  | 50 => ⟨S_, .f32⟩
  | 51 => ⟨S4000000, .f32⟩
  | 52 => ⟨S4000000, .f32⟩
  | 53 => ⟨S4000000, .f32⟩
  | 54 => ⟨S_, .f32⟩
  | 55 => ⟨S4000000, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S_, .f32⟩
  | 66 => ⟨S4000000, .f32⟩
  | 67 => ⟨S4000000, .f32⟩
  | 68 => ⟨S_, .f32⟩
  | 69 => ⟨S_, .f32⟩
  | 70 => ⟨S_, .f32⟩
  | 71 => ⟨S_, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_7 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_8 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_9 : Ref sig .tc := ⟨.hbm, 163, rfl⟩
abbrev main_v141 : Ref sig .tc := ⟨.hbm, 164, rfl⟩
abbrev main_v142 : Ref sig .tc := ⟨.hbm, 165, rfl⟩
abbrev main_cst_10 : Ref sig .tc := ⟨.hbm, 166, rfl⟩
abbrev main_call2_v0 : Ref sig .tc := ⟨.hbm, 167, rfl⟩
abbrev main_call2_v1 : Ref sig .tc := ⟨.hbm, 168, rfl⟩
abbrev main_v143 : Ref sig .tc := ⟨.hbm, 169, rfl⟩
abbrev main_v144 : Ref sig .tc := ⟨.hbm, 170, rfl⟩
abbrev main_cst_11 : Ref sig .tc := ⟨.hbm, 171, rfl⟩
abbrev main_v145 : Ref sig .tc := ⟨.hbm, 172, rfl⟩
abbrev main_v146 : Ref sig .tc := ⟨.hbm, 173, rfl⟩
abbrev main_cst_12 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_13 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_14 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_15 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_cst_16 : Ref sig .tc := ⟨.hbm, 192, rfl⟩
abbrev main_call3_v0 : Ref sig .tc := ⟨.hbm, 193, rfl⟩
abbrev main_call3_v1 : Ref sig .tc := ⟨.hbm, 194, rfl⟩
abbrev main_v161 : Ref sig .tc := ⟨.hbm, 195, rfl⟩
abbrev main_cst_17 : Ref sig .tc := ⟨.hbm, 196, rfl⟩
abbrev main_v162 : Ref sig .tc := ⟨.hbm, 197, rfl⟩
abbrev main_cst_18 : Ref sig .tc := ⟨.hbm, 198, rfl⟩
abbrev main_v163 : Ref sig .tc := ⟨.hbm, 199, rfl⟩

abbrev nD : Nat := 1
abbrev τ : Topo := Topo.v7x

variable {F : FTy → Type} [FloatOps F]

class Facts₀ : Prop where
  slices_S4000000x5_S4000000x2_0_0 : S4000000x5.Slices ![0, 0] S4000000x2
  slices_S4000000x5_S4000000x2_0_2 : S4000000x5.Slices ![0, 2] S4000000x2
  bcast_S_S4000000x2 : S_.BroadcastsInDim S4000000x2 (![] : Fin 0 → Fin S4000000x2.rank)
  slices_S4000000x5_S4000000x1_0_4 : S4000000x5.Slices ![0, 4] S4000000x1
  shapeCasts_S4000000x1_S4000000 : S4000000x1.ShapeCasts S4000000
  slices_S4000000x2_S4000000x1_0_0 : S4000000x2.Slices ![0, 0] S4000000x1
  bcast_S_S4000000 : S_.BroadcastsInDim S4000000 (![] : Fin 0 → Fin S4000000.rank)
  slices_S4000000x2_S4000000x1_0_1 : S4000000x2.Slices ![0, 1] S4000000x1
  reducesTo_S4000000_S_d0 : S4000000.ReducesTo [0] S_
  h_S_ : 0 < S_.numel

variable [Facts₀]

class Facts : Prop extends Facts₀ where

variable [Facts]
-- ==== Proof.LibRowBlock.lean ====
/-
  Rows of a two-dimensional buffer, read at an index.

  A buffer of shape `[R, B]` holds `R` rows of `B` entries. Loading the `1 × B` rectangle whose corner is
  `(r, 0)` and recasting the `[1, B]` result as a vector of length `B` gives row `r`: entry `j` of the vector is
  the buffer's entry `(r, j)`. Nothing here depends on what the entries are.
-/
import Idealize.ShloMosaic.Lib.Pipeline.Value
import Idealize.ShloMosaic.Lib.Pipeline.FrameBody
import Idealize.ShloMosaic.Lib.ValueIdx
import Idealize.ShloMosaic.Lib.ValueLayout

noncomputable section

namespace Cert.Lib.RowBlock

open Idealize.ShloMosaic Idealize.ShloMosaic.ValueIdx

variable {Val : EltTy → Type} {e : EltTy}

/-- Row `r` of an `[R, B]` buffer, loaded through the unit-stride rectangle at `(r, 0)` of sizes `(1, B)` and recast
    from `[1, B]` to `[B]`: its entry `j` is the buffer's entry `(r, j)`. -/
theorem row_load_apply {R B : ℕ} (X : (⟨2, ![R, B]⟩ : Shape).Idx → Val e) (r : ℕ) (hr : r < R)
    (inb : ∀ a, (![r, 0] : Fin 2 → ℕ) a + (⟨2, ![1, B]⟩ : Shape).size a ≤ (⟨2, ![R, B]⟩ : Shape).size a)
    (h : (⟨2, ![1, B]⟩ : Shape).ShapeCasts ⟨1, ![B]⟩) (j : Fin B) :
    shapeCast ⟨1, ![B]⟩ (View.ld X (Rect.unit (s := ⟨2, ![R, B]⟩) ![r, 0] (⟨2, ![1, B]⟩ : Shape).size inb)) h (ix1 j)
      = X (ix2 ⟨r, hr⟩ j) := by
  rw [shapeCast_1a_a_apply]
  show X _ = X _
  refine congrArg X (funext fun a => Fin.ext ?_)
  match a with
  | ⟨0, _⟩ => show r + 1 * 0 = r; omega
  | ⟨1, _⟩ => show 0 + 1 * j.val = j.val; omega

end Cert.Lib.RowBlock

end
-- ==== Proof.Stages.lean ====
/-
  The body's arithmetic, stage by stage, against the reference's.

  Both programs compute, for each box pair (one row of the two `[N, 5]` arrays), the same chain of quantities: the
  clipped width and height, the covariance entries `a·c² + b·s²`, `(a − b)·s·c`, `a·s² + b·c²` of each box (with
  `a = (w/2)²`, `b = (h/2)²`, `c = cos r`, `s = sin r`), the inverse of the target's covariance, the quadratic form of
  the centre difference and its logarithm, the Kalman gain `Σp (Σp + Σt)⁻¹`, the fused covariance `Σp − K Σp`, its
  determinant clamped at zero, `Vb = 4·√det`, the ratio `Vb / (Vb_p + Vb_t − 3·Vb + ε)` and the clamped loss.
  The kernel does so on vectors of 160000 rows at a time, the reference on all 4000000 rows at once; every operation
  is entry by entry. So for ANY map `e` from the short index set to the long one, each kernel quantity computed from
  reference quantities read along `e` is the corresponding later reference quantity read along `e`. The two texts use
  the same operations in the same order with the same constants; the one difference is that the kernel writes a
  negation as `0 − x` where the reference writes `−x`, and on the extended reals `0 − x = −x` for every `x`.
-/
import proofs.«162172_j47528108098029_2_alg».proof.Proof.Gen.KernelIdeal.Skeleton
import proofs.«162172_j47528108098029_2_alg».proof.Proof.RefRead
import Idealize.ShloMosaic.PureOps.Ideal.Laws

noncomputable section

namespace Cert.KF.Stages

open Idealize.ShloMosaic Cert.KernelIdeal.Gen Cert.ReferenceIdeal.Read

/-- A quantity of the reference (one entry per row of the arrays) read along an index map `e`. -/
abbrev along (e : Cert.KernelIdeal.S160000.Idx → Cert.ReferenceIdeal.S4000000.Idx) (v : Cert.ReferenceIdeal.S4000000.Idx → EReal) : FVec Ideal Cert.KernelIdeal.S160000 .f32 :=
  fun j => v (e j)

/-- The kernel's spelling of a negation, `0 − x`, is `−x` on the extended reals, entry by entry. -/
theorem zero_sub_vec (v : FVec Ideal Cert.KernelIdeal.S160000 .f32) :
    subf (broadcast Cert.KernelIdeal.S160000 (Scalar.ofBits (F := Ideal) .f32 0x00000000#32)) v = fun j => - v j := by
  funext j
  show Ideal.ofBits .f32 0x00000000#32 - v j = - v j
  rw [Ideal.ofBits_zero_f32, zero_sub]

variable (x0 x1 : (⟨Cert.ReferenceIdeal.S4000000x5, .f32⟩ : BufTy).Contents (Elt Ideal))
variable (e : Cert.KernelIdeal.S160000.Idx → Cert.ReferenceIdeal.S4000000.Idx)

/-- `a = (w/2)²` of the predicted box. -/
theorem pay16_eq :
    k0_pay16 (along e (val_main_v6 (F := Ideal) x0)) = (along e (val_main_v9 (F := Ideal) x0)) := rfl

/-- `b = (h/2)²` of the predicted box. -/
theorem pay17_eq :
    k0_pay17 (along e (val_main_v11 (F := Ideal) x0)) = (along e (val_main_v14 (F := Ideal) x0)) := rfl

/-- `cos r` of the predicted box. -/
theorem pay18_eq :
    k0_pay18 (along e (val_main_v4 (F := Ideal) x0)) = (along e (val_main_v15 (F := Ideal) x0)) := rfl

/-- `sin r` of the predicted box. -/
theorem pay19_eq :
    k0_pay19 (along e (val_main_v4 (F := Ideal) x0)) = (along e (val_main_v16 (F := Ideal) x0)) := rfl

/-- `Σp₁₁ = a·c² + b·s²`. -/
theorem pay20_eq :
    k0_pay20 (along e (val_main_v6 (F := Ideal) x0)) (along e (val_main_v11 (F := Ideal) x0)) (along e (val_main_v4 (F := Ideal) x0)) = (along e (val_main_v21 (F := Ideal) x0)) := by
  unfold k0_pay20
  rw [pay16_eq, pay17_eq, pay18_eq, pay19_eq]
  rfl

/-- `Σp₁₂ = (a − b)·s·c`. -/
theorem pay21_eq :
    k0_pay21 (along e (val_main_v6 (F := Ideal) x0)) (along e (val_main_v11 (F := Ideal) x0)) (along e (val_main_v4 (F := Ideal) x0)) = (along e (val_main_v24 (F := Ideal) x0)) := by
  unfold k0_pay21
  rw [pay16_eq, pay17_eq, pay18_eq, pay19_eq]
  rfl

/-- `Σp₂₂ = a·s² + b·c²`. -/
theorem pay22_eq :
    k0_pay22 (along e (val_main_v6 (F := Ideal) x0)) (along e (val_main_v11 (F := Ideal) x0)) (along e (val_main_v4 (F := Ideal) x0)) = (along e (val_main_v29 (F := Ideal) x0)) := by
  unfold k0_pay22
  rw [pay16_eq, pay17_eq, pay18_eq, pay19_eq]
  rfl

/-- `a = (w/2)²` of the target box. -/
theorem pay23_eq :
    k0_pay23 (along e (val_main_v36 (F := Ideal) x1)) = (along e (val_main_v39 (F := Ideal) x1)) := rfl

/-- `b = (h/2)²` of the target box. -/
theorem pay24_eq (v31 v32 : FVec Ideal Cert.KernelIdeal.S160000 .f32) (v34 : Vec Ideal Cert.KernelIdeal.S1x160000 .f32)
    (h14 : k0_pay14 v31 v32 = (along e (val_main_v41 (F := Ideal) x1))) :
    k0_pay24 v31 v32 = (along e (val_main_v44 (F := Ideal) x1)) := by
  unfold k0_pay24
  rw [h14]
  rfl

/-- `cos r` of the target box. -/
theorem pay25_eq (v31 v32 : FVec Ideal Cert.KernelIdeal.S160000 .f32) (v34 : Vec Ideal Cert.KernelIdeal.S1x160000 .f32)
    (h15 : k0_pay15 v34 = (along e (val_main_v34 (F := Ideal) x1))) :
    k0_pay25 v34 = (along e (val_main_v45 (F := Ideal) x1)) := by
  unfold k0_pay25
  rw [h15]
  rfl

/-- `sin r` of the target box. -/
theorem pay26_eq (v31 v32 : FVec Ideal Cert.KernelIdeal.S160000 .f32) (v34 : Vec Ideal Cert.KernelIdeal.S1x160000 .f32)
    (h15 : k0_pay15 v34 = (along e (val_main_v34 (F := Ideal) x1))) :
    k0_pay26 v34 = (along e (val_main_v46 (F := Ideal) x1)) := by
  unfold k0_pay26
  rw [h15]
  rfl

/-- `Σt₁₁`. -/
theorem pay27_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay27 (along e (val_main_v36 (F := Ideal) x1)) v31 v32 v34 = (along e (val_main_v51 (F := Ideal) x1)) := by
  unfold k0_pay27
  rw [pay23_eq, pay24_eq x1 e v31 v32 v34 h14, pay25_eq x1 e v31 v32 v34 h15, pay26_eq x1 e v31 v32 v34 h15]
  rfl

/-- `Σt₁₂`. -/
theorem pay28_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay28 (along e (val_main_v36 (F := Ideal) x1)) v31 v32 v34 = (along e (val_main_v54 (F := Ideal) x1)) := by
  unfold k0_pay28
  rw [pay23_eq, pay24_eq x1 e v31 v32 v34 h14, pay25_eq x1 e v31 v32 v34 h15, pay26_eq x1 e v31 v32 v34 h15]
  rfl

/-- `Σt₂₂`. -/
theorem pay29_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay29 (along e (val_main_v36 (F := Ideal) x1)) v31 v32 v34 = (along e (val_main_v59 (F := Ideal) x1)) := by
  unfold k0_pay29
  rw [pay23_eq, pay24_eq x1 e v31 v32 v34 h14, pay25_eq x1 e v31 v32 v34 h15, pay26_eq x1 e v31 v32 v34 h15]
  rfl

/-- `det Σt`. -/
theorem pay30_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay30 (along e (val_main_v36 (F := Ideal) x1)) v31 v32 v34 = (along e (val_main_v62 (F := Ideal) x1)) := by
  unfold k0_pay30
  rw [pay27_eq x1 e v31 v32 v34 h14 h15, pay28_eq x1 e v31 v32 v34 h14 h15, pay29_eq x1 e v31 v32 v34 h14 h15]
  rfl

/-- `(Σt⁻¹)₁₁ = Σt₂₂ / det Σt`. -/
theorem pay31_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay31 (along e (val_main_v36 (F := Ideal) x1)) v31 v32 v34 = (along e (val_main_v63 (F := Ideal) x1)) := by
  unfold k0_pay31
  rw [pay29_eq x1 e v31 v32 v34 h14 h15, pay30_eq x1 e v31 v32 v34 h14 h15]
  rfl

/-- `(Σt⁻¹)₁₂ = −Σt₁₂ / det Σt`, the kernel's `0 − Σt₁₂` being the reference's `−Σt₁₂`. -/
theorem pay32_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay32 (along e (val_main_v36 (F := Ideal) x1)) v31 v32 v34 = (along e (val_main_v65 (F := Ideal) x1)) := by
  unfold k0_pay32
  rw [pay28_eq x1 e v31 v32 v34 h14 h15, pay30_eq x1 e v31 v32 v34 h14 h15]
  dsimp only
  rw [zero_sub_vec]
  rfl

/-- `(Σt⁻¹)₂₂ = Σt₁₁ / det Σt`. -/
theorem pay33_eq (v31 v32 : FVec Ideal Cert.KernelIdeal.S160000 .f32) (v34 : Vec Ideal Cert.KernelIdeal.S1x160000 .f32)
    (h14 : k0_pay14 v31 v32 = (along e (val_main_v41 (F := Ideal) x1)))
    (h15 : k0_pay15 v34 = (along e (val_main_v34 (F := Ideal) x1))) :
    k0_pay33 (along e (val_main_v36 (F := Ideal) x1)) v31 v32 v34 = (along e (val_main_v66 (F := Ideal) x1)) := by
  unfold k0_pay33
  rw [pay27_eq x1 e v31 v32 v34 h14 h15, pay30_eq x1 e v31 v32 v34 h14 h15]
  rfl

/-- The centre term `log (dᵀ Σt⁻¹ d + 1)`. -/
theorem pay34_eq :
    k0_pay34 (along e (val_main_v68 (F := Ideal) x0)) (along e (val_main_v73 (F := Ideal) x0)) (along e (val_main_v70 (F := Ideal) x1)) (along e (val_main_v75 (F := Ideal) x1)) (along e (val_main_v63 (F := Ideal) x1)) (along e (val_main_v65 (F := Ideal) x1)) (along e (val_main_v66 (F := Ideal) x1)) = (along e (val_main_v89 (F := Ideal) x0 x1)) := rfl

/-- The predicted box's area `w·h`. -/
theorem pay35_eq :
    k0_pay35 (along e (val_main_v6 (F := Ideal) x0)) (along e (val_main_v11 (F := Ideal) x0)) = (along e (val_main_v94 (F := Ideal) x0)) := rfl

/-- The target box's area `w·h`. -/
theorem pay36_eq :
    k0_pay36 (along e (val_main_v36 (F := Ideal) x1)) (along e (val_main_v41 (F := Ideal) x1)) = (along e (val_main_v99 (F := Ideal) x1)) := rfl

/-- `(Σp + Σt)₁₁`. -/
theorem pay37_eq :
    k0_pay37 (along e (val_main_v21 (F := Ideal) x0)) (along e (val_main_v51 (F := Ideal) x1)) = (along e (val_main_v100 (F := Ideal) x0 x1)) := rfl

/-- `(Σp + Σt)₁₂`. -/
theorem pay38_eq :
    k0_pay38 (along e (val_main_v24 (F := Ideal) x0)) (along e (val_main_v54 (F := Ideal) x1)) = (along e (val_main_v101 (F := Ideal) x0 x1)) := rfl

/-- `(Σp + Σt)₂₂`. -/
theorem pay39_eq :
    k0_pay39 (along e (val_main_v29 (F := Ideal) x0)) (along e (val_main_v59 (F := Ideal) x1)) = (along e (val_main_v102 (F := Ideal) x0 x1)) := rfl

/-- `det (Σp + Σt)`. -/
theorem pay40_eq :
    k0_pay40 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v105 (F := Ideal) x0 x1)) := by
  unfold k0_pay40
  rw [pay37_eq, pay38_eq, pay39_eq]
  rfl

/-- `((Σp + Σt)⁻¹)₁₁`. -/
theorem pay41_eq :
    k0_pay41 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v106 (F := Ideal) x0 x1)) := by
  unfold k0_pay41
  rw [pay39_eq, pay40_eq]
  rfl

/-- `((Σp + Σt)⁻¹)₁₂`, with the same two spellings of the negation. -/
theorem pay42_eq :
    k0_pay42 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v108 (F := Ideal) x0 x1)) := by
  unfold k0_pay42
  rw [pay38_eq, pay40_eq]
  dsimp only
  rw [zero_sub_vec]
  rfl

/-- `((Σp + Σt)⁻¹)₂₂`. -/
theorem pay43_eq :
    k0_pay43 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v109 (F := Ideal) x0 x1)) := by
  unfold k0_pay43
  rw [pay37_eq, pay40_eq]
  rfl

/-- The gain's entry `K₁₁`. -/
theorem pay44_eq :
    k0_pay44 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v112 (F := Ideal) x0 x1)) := by
  unfold k0_pay44
  rw [pay41_eq, pay42_eq]
  rfl

/-- `K₁₂`. -/
theorem pay45_eq :
    k0_pay45 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v115 (F := Ideal) x0 x1)) := by
  unfold k0_pay45
  rw [pay42_eq, pay43_eq]
  rfl

/-- `K₂₁`. -/
theorem pay46_eq :
    k0_pay46 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v118 (F := Ideal) x0 x1)) := by
  unfold k0_pay46
  rw [pay41_eq, pay42_eq]
  rfl

/-- `K₂₂`. -/
theorem pay47_eq :
    k0_pay47 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v121 (F := Ideal) x0 x1)) := by
  unfold k0_pay47
  rw [pay42_eq, pay43_eq]
  rfl

/-- `(Σp − KΣp)₁₁ · (Σp − KΣp)₂₂`. -/
theorem pay48_eq :
    k0_pay48 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v136 (F := Ideal) x0 x1)) := by
  unfold k0_pay48
  rw [pay44_eq, pay45_eq, pay46_eq, pay47_eq]
  rfl

/-- `(Σp − KΣp)₁₂`. -/
theorem pay49_eq :
    k0_pay49 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v137 (F := Ideal) x0 x1)) := by
  unfold k0_pay49
  rw [pay44_eq, pay45_eq]
  rfl

/-- `(Σp − KΣp)₂₁`. -/
theorem pay50_eq :
    k0_pay50 (along e (val_main_v21 (F := Ideal) x0)) (along e (val_main_v24 (F := Ideal) x0)) (along e (val_main_v29 (F := Ideal) x0)) (along e (val_main_v51 (F := Ideal) x1)) (along e (val_main_v54 (F := Ideal) x1)) (along e (val_main_v59 (F := Ideal) x1)) = (along e (val_main_v138 (F := Ideal) x0 x1)) := by
  unfold k0_pay50
  rw [pay46_eq, pay47_eq]
  rfl

/-- The ratio `Vb / (Vb_p + Vb_t − 3·Vb + ε)` with `Vb = 4·√(max-at-zero of the fused determinant)`. -/
theorem pay1_eq :
    k0_pay1 (along e (val_main_v94 (F := Ideal) x0)) (along e (val_main_v99 (F := Ideal) x1)) (along e (val_main_v136 (F := Ideal) x0 x1)) (along e (val_main_v137 (F := Ideal) x0 x1)) (along e (val_main_v138 (F := Ideal) x0 x1)) = (along e (val_main_v155 (F := Ideal) x0 x1)) := rfl

/-- What the kernel stores as the per-row loss: `max 0 (log-centre-term − log (ratio + ε))`, recast to one row; the
    kernel's `0 − log …` is the reference's `−log …`. -/
theorem pay2_eq :
    k0_pay2 (along e (val_main_v89 (F := Ideal) x0 x1)) (along e (val_main_v94 (F := Ideal) x0)) (along e (val_main_v99 (F := Ideal) x1)) (along e (val_main_v136 (F := Ideal) x0 x1)) (along e (val_main_v137 (F := Ideal) x0 x1)) (along e (val_main_v138 (F := Ideal) x0 x1))
      = shapeCast Cert.KernelIdeal.S1x160000 (along e (val_main_v161 (F := Ideal) x0 x1)) Cert.KernelIdeal.Gen.shapeCasts_S160000_S1x160000 := by
  unfold k0_pay2
  rw [pay1_eq]
  dsimp only
  rw [zero_sub_vec]
  rfl

/-- What the kernel stores as the per-row ratio, recast to one row. -/
theorem pay3_eq :
    k0_pay3 (along e (val_main_v94 (F := Ideal) x0)) (along e (val_main_v99 (F := Ideal) x1)) (along e (val_main_v136 (F := Ideal) x0 x1)) (along e (val_main_v137 (F := Ideal) x0 x1)) (along e (val_main_v138 (F := Ideal) x0 x1))
      = shapeCast Cert.KernelIdeal.S1x160000 (along e (val_main_v155 (F := Ideal) x0 x1)) Cert.KernelIdeal.Gen.shapeCasts_S160000_S1x160000 := by
  unfold k0_pay3
  rw [pay1_eq]

end Cert.KF.Stages

end
-- ==== Proof.RefColumns.lean ====
/-
  The reference's ten per-row inputs, read at a row.

  The reference takes its inputs out of an `[N, 5]` array by slicing columns and dropping the unit axis: the centre
  `(x, y)` from columns 0 and 1, the angle from column 4, and the width and height from columns 2 and 3 AFTER clipping
  the two-column slice to `[1e-7, 1e7]`. Read at row `i`, each is the array's entry `(i, k)`, clipped for `k = 2, 3`.
-/
import proofs.«162172_j47528108098029_2_alg».proof.Proof.RefRead
import Idealize.ShloMosaic.Lib.ValueIdx

noncomputable section

namespace Cert.KF.RefCols

open Idealize.ShloMosaic Idealize.ShloMosaic.ValueIdx Cert.ReferenceIdeal Cert.ReferenceIdeal.Read

variable (a : (⟨S4000000x5, .f32⟩ : BufTy).Contents (Elt Ideal))

/-- Clipping to `[1e-7, 1e7]` as both programs spell it: `min 1e7 (max 1e-7 x)`, the bounds as their f32 words. -/
abbrev clip (x : EReal) : EReal :=
  FloatOps.minimumf (F := Ideal) (φ := .f32) (FloatOps.ofBits .f32 0x4B189680#32) (FloatOps.maximumf (FloatOps.ofBits .f32 0x33D6BF95#32) x)

/-- The predicted centre's x at row `i` is the array's entry `(i, 0)`. -/
theorem col_v68 (i : S4000000.Idx) : val_main_v68 (F := Ideal) a i = a (ix2 (i 0) (0 : Fin 5)) := by
  rw [val_main_v68_apply, val_main_v67_apply, val_main_v0_apply]
  refine congrArg a (funext fun d => Fin.ext ?_)
  match d with
  | ⟨0, _⟩ => exact Nat.div_one _
  | ⟨1, _⟩ => rfl

/-- The predicted centre's y at row `i` is the array's entry `(i, 1)`. -/
theorem col_v73 (i : S4000000.Idx) : val_main_v73 (F := Ideal) a i = a (ix2 (i 0) (1 : Fin 5)) := by
  rw [val_main_v73_apply, val_main_v72_apply, val_main_v0_apply]
  refine congrArg a (funext fun d => Fin.ext ?_)
  match d with
  | ⟨0, _⟩ => exact Nat.div_one _
  | ⟨1, _⟩ => rfl

/-- The predicted angle at row `i` is the array's entry `(i, 4)`. -/
theorem col_v4 (i : S4000000.Idx) : val_main_v4 (F := Ideal) a i = a (ix2 (i 0) (4 : Fin 5)) := by
  rw [val_main_v4_apply, val_main_v3_apply]
  refine congrArg a (funext fun d => Fin.ext ?_)
  match d with
  | ⟨0, _⟩ => exact Nat.div_one _
  | ⟨1, _⟩ => rfl

/-- The target centre's x at row `i` is the array's entry `(i, 0)`. -/
theorem col_v70 (i : S4000000.Idx) : val_main_v70 (F := Ideal) a i = a (ix2 (i 0) (0 : Fin 5)) := by
  rw [val_main_v70_apply, val_main_v69_apply, val_main_v30_apply]
  refine congrArg a (funext fun d => Fin.ext ?_)
  match d with
  | ⟨0, _⟩ => exact Nat.div_one _
  | ⟨1, _⟩ => rfl

/-- The target centre's y at row `i` is the array's entry `(i, 1)`. -/
theorem col_v75 (i : S4000000.Idx) : val_main_v75 (F := Ideal) a i = a (ix2 (i 0) (1 : Fin 5)) := by
  rw [val_main_v75_apply, val_main_v74_apply, val_main_v30_apply]
  refine congrArg a (funext fun d => Fin.ext ?_)
  match d with
  | ⟨0, _⟩ => exact Nat.div_one _
  | ⟨1, _⟩ => rfl

/-- The target angle at row `i` is the array's entry `(i, 4)`. -/
theorem col_v34 (i : S4000000.Idx) : val_main_v34 (F := Ideal) a i = a (ix2 (i 0) (4 : Fin 5)) := by
  rw [val_main_v34_apply, val_main_v33_apply]
  refine congrArg a (funext fun d => Fin.ext ?_)
  match d with
  | ⟨0, _⟩ => exact Nat.div_one _
  | ⟨1, _⟩ => rfl

/-- The predicted width at row `i` is the array's entry `(i, 2)` clipped. -/
theorem col_v6 (i : S4000000.Idx) : val_main_v6 (F := Ideal) a i = clip (a (ix2 (i 0) (2 : Fin 5))) := by
  rw [val_main_v6_apply, val_main_v5_apply, val_main_v2_apply, val_main_call0_v2_apply, val_main_v1_apply]
  refine congrArg₂ _ rfl (congrArg₂ _ rfl (congrArg a (funext fun d => Fin.ext ?_)))
  match d with
  | ⟨0, _⟩ => exact Nat.div_one _
  | ⟨1, _⟩ => rfl

/-- The predicted height at row `i` is the array's entry `(i, 3)` clipped. -/
theorem col_v11 (i : S4000000.Idx) : val_main_v11 (F := Ideal) a i = clip (a (ix2 (i 0) (3 : Fin 5))) := by
  rw [val_main_v11_apply, val_main_v10_apply, val_main_v2_apply, val_main_call0_v2_apply, val_main_v1_apply]
  refine congrArg₂ _ rfl (congrArg₂ _ rfl (congrArg a (funext fun d => Fin.ext ?_)))
  match d with
  | ⟨0, _⟩ => exact Nat.div_one _
  | ⟨1, _⟩ => rfl

/-- The target width at row `i` is the array's entry `(i, 2)` clipped. -/
theorem col_v36 (i : S4000000.Idx) : val_main_v36 (F := Ideal) a i = clip (a (ix2 (i 0) (2 : Fin 5))) := by
  rw [val_main_v36_apply, val_main_v35_apply, val_main_v32_apply, val_main_call1_v2_apply, val_main_v31_apply]
  refine congrArg₂ _ rfl (congrArg₂ _ rfl (congrArg a (funext fun d => Fin.ext ?_)))
  match d with
  | ⟨0, _⟩ => exact Nat.div_one _
  | ⟨1, _⟩ => rfl

/-- The target height at row `i` is the array's entry `(i, 3)` clipped. -/
theorem col_v41 (i : S4000000.Idx) : val_main_v41 (F := Ideal) a i = clip (a (ix2 (i 0) (3 : Fin 5))) := by
  rw [val_main_v41_apply, val_main_v40_apply, val_main_v32_apply, val_main_call1_v2_apply, val_main_v31_apply]
  refine congrArg₂ _ rfl (congrArg₂ _ rfl (congrArg a (funext fun d => Fin.ext ?_)))
  match d with
  | ⟨0, _⟩ => exact Nat.div_one _
  | ⟨1, _⟩ => rfl

end Cert.KF.RefCols

end
-- ==== Proof.Rows.lean ====
/-
  The kernel's loads, row by row, against the reference's inputs.

  The host hands the kernel each argument TRANSPOSED, `[5, N]`: row `k` is column `k` of the `[N, 5]` argument. Grid
  point `t` stages the block of all five rows and columns `t·160000 … t·160000 + 159999`, and the body loads it a row
  at a time. So entry `j` of the row `k` the body loads at point `t` is the argument's entry `(t·160000 + j, k)` —
  which is what the reference's `k`-th input holds at row `t·160000 + j`.
-/
import proofs.«162172_j47528108098029_2_alg».proof.Proof.Gen.KernelIdeal.Frame
import proofs.«162172_j47528108098029_2_alg».proof.Proof.RefRead
import proofs.«162172_j47528108098029_2_alg».proof.Proof.LibRowBlock
import proofs.«162172_j47528108098029_2_alg».proof.Proof.Stages
import proofs.«162172_j47528108098029_2_alg».proof.Proof.RefColumns
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KF.Rows

open Idealize.ShloMosaic Idealize.ShloMosaic.TcCoe Idealize.SL.Sem Idealize.ShloMosaic.ValueIdx
open Cert.KernelIdeal Cert.KernelIdeal.Gen Cert.ReferenceIdeal.Read
open Cert.KF.Stages (along)
open Cert.Lib.RowBlock (row_load_apply)

/-- Row `j` of grid point `t`'s block is row `t·160000 + j` of the arrays. -/
def rowAt (t : Fin cfg0.N) (j : S160000.Idx) : Cert.ReferenceIdeal.S4000000.Idx :=
  ix1 ⟨t.val * 160000 + (j 0).val, by
    have ht : t.val < 25 := lt_of_lt_of_eq t.isLt N_0
    have hj : (j 0).val < 160000 := (j 0).isLt
    omega⟩

/-- Where each window's block sits at point `t`: block row 0, block column `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

variable (m : (ℓ : Loc nD τ sig) → Buf (Elt Ideal) ℓ) (c : Dev nD)

/-- The first argument array (the predicted boxes) as launched. -/
abbrev pred : (⟨Cert.ReferenceIdeal.S4000000x5, .f32⟩ : BufTy).Contents (Elt Ideal) := m ((c : Thread nD τ).loc main_arg0)
/-- The second argument array (the target boxes) as launched. -/
abbrev targ : (⟨Cert.ReferenceIdeal.S4000000x5, .f32⟩ : BufTy).Contents (Elt Ideal) := m ((c : Thread nD τ).loc main_arg1)

/-- The first window's array when the region starts: the predicted boxes transposed. -/
theorem V_v0 : (V m c main_v0 : S5x4000000.Idx → EReal)
    = transpose S5x4000000 [1, 0] (pred m c) transposes_S4000000x5_S5x4000000_1_0 := by
  show StableHlo.after hostOps0 (fun b => m (c, b)) (Proc.devRef .tc main_v0) = _
  after_results

/-- The second window's array when the region starts: the target boxes transposed. -/
theorem V_v1 : (V m c main_v1 : S5x4000000.Idx → EReal)
    = transpose S5x4000000 [1, 0] (targ m c) transposes_S4000000x5_S5x4000000_1_0 := by
  show StableHlo.after hostOps0 (fun b => m (c, b)) (Proc.devRef .tc main_v1) = _
  after_results

variable (t : Fin cfg0.N)

/-- Entry `(k, q)` of the first window's block at point `t` is the predicted boxes' entry `(t·160000 + q, k)`. -/
theorem blk0_entry (k : Fin 5) (q : Fin 160000) :
    iblk m c 0 t (ix2 k q) = pred m c (ix2 ((rowAt t (ix1 q)) 0) k) := by
  obtain ⟨e0, e1, -⟩ := idx_facts t
  show V m c main_v0 (((cfg0.win 0).blk t).view.emb (ix2 k q)) = _
  rw [V_v0]
  refine transpose_apply _ _ _ _ _ fun b => ?_
  match b with
  | ⟨0, _⟩ => show k.val = win0_0.index t (0 : Fin 2) * 5 + 1 * k.val; rw [e0]; omega
  | ⟨1, _⟩ => show t.val * 160000 + q.val = win0_0.index t (1 : Fin 2) * 160000 + 1 * q.val; rw [e1]; omega

/-- Entry `(k, q)` of the second window's block at point `t` is the target boxes' entry `(t·160000 + q, k)`. -/
theorem blk1_entry (k : Fin 5) (q : Fin 160000) :
    iblk m c 1 t (ix2 k q) = targ m c (ix2 ((rowAt t (ix1 q)) 0) k) := by
  obtain ⟨-, -, e0, e1, -⟩ := idx_facts t
  show V m c main_v1 (((cfg0.win 1).blk t).view.emb (ix2 k q)) = _
  rw [V_v1]
  refine transpose_apply _ _ _ _ _ fun b => ?_
  match b with
  | ⟨0, _⟩ => show k.val = win0_1.index t (0 : Fin 2) * 5 + 1 * k.val; rw [e0]; omega
  | ⟨1, _⟩ => show t.val * 160000 + q.val = win0_1.index t (1 : Fin 2) * 160000 + 1 * q.val; rw [e1]; omega

/-- Row `k` of the first window's block, as the body loads and recasts it: entry `j` is the predicted boxes' entry
    `(t·160000 + j, k)`. -/
theorem row0 (k : ℕ) (hk : k < 5) (inb : ∀ a, (![k, 0] : Fin 2 → ℕ) a + S1x160000.size a ≤ S5x160000.size a) (j : S160000.Idx) :
    shapeCast S160000 (View.ld (Val := Elt Ideal) (S := S5x160000) (e' := .f32) (iblk m c 0 t) (Rect.unit (s := S5x160000) ![k, 0] S1x160000.size inb)) shapeCasts_S1x160000_S160000 j
      = pred m c (ix2 ((rowAt t j) 0) ⟨k, hk⟩) := by
  obtain ⟨q, rfl⟩ : ∃ q : Fin 160000, j = ix1 q := ⟨j 0, eq_ix1 j⟩
  exact (row_load_apply (R := 5) (B := 160000) (iblk m c 0 t) k hk inb _ q).trans (blk0_entry m c t ⟨k, hk⟩ q)

/-- The same for the second window and the target boxes. -/
theorem row1 (k : ℕ) (hk : k < 5) (inb : ∀ a, (![k, 0] : Fin 2 → ℕ) a + S1x160000.size a ≤ S5x160000.size a) (j : S160000.Idx) :
    shapeCast S160000 (View.ld (Val := Elt Ideal) (S := S5x160000) (e' := .f32) (iblk m c 1 t) (Rect.unit (s := S5x160000) ![k, 0] S1x160000.size inb)) shapeCasts_S1x160000_S160000 j
      = targ m c (ix2 ((rowAt t j) 0) ⟨k, hk⟩) := by
  obtain ⟨q, rfl⟩ : ∃ q : Fin 160000, j = ix1 q := ⟨j 0, eq_ix1 j⟩
  exact (row_load_apply (R := 5) (B := 160000) (iblk m c 1 t) k hk inb _ q).trans (blk1_entry m c t ⟨k, hk⟩ q)

/-! ## The ten inputs of a row, as the body forms them, are the reference's read along `rowAt t` -/

/-- The predicted centre's x. -/
theorem leaf_xp : k0_pay4 (View.ld (Val := Elt Ideal) (S := S5x160000) (e' := .f32) (iblk m c 0 t) r0_0) = along (rowAt t) (val_main_v68 (F := Ideal) (pred m c)) := by
  funext j
  show shapeCast S160000 (View.ld (Val := Elt Ideal) (S := S5x160000) (e' := .f32) (iblk m c 0 t) r0_0) shapeCasts_S1x160000_S160000 j = val_main_v68 (F := Ideal) (pred m c) (rowAt t j)
  exact ((row0 m c t 0 (by omega) _ j)).trans (Cert.KF.RefCols.col_v68 (pred m c) (rowAt t j)).symm

/-- The predicted centre's y. -/
theorem leaf_yp : k0_pay5 (View.ld (Val := Elt Ideal) (S := S5x160000) (e' := .f32) (iblk m c 0 t) r0_1) = along (rowAt t) (val_main_v73 (F := Ideal) (pred m c)) := by
  funext j
  show shapeCast S160000 (View.ld (Val := Elt Ideal) (S := S5x160000) (e' := .f32) (iblk m c 0 t) r0_1) shapeCasts_S1x160000_S160000 j = val_main_v73 (F := Ideal) (pred m c) (rowAt t j)
  exact ((row0 m c t 1 (by omega) _ j)).trans (Cert.KF.RefCols.col_v73 (pred m c) (rowAt t j)).symm

/-- The predicted width, clipped. -/
theorem leaf_wp : k0_pay6 (View.ld (Val := Elt Ideal) (S := S5x160000) (e' := .f32) (iblk m c 0 t) r0_2) = along (rowAt t) (val_main_v6 (F := Ideal) (pred m c)) := by
  funext j
  show Cert.KF.RefCols.clip (shapeCast S160000 (View.ld (Val := Elt Ideal) (S := S5x160000) (e' := .f32) (iblk m c 0 t) r0_2) shapeCasts_S1x160000_S160000 j) = val_main_v6 (F := Ideal) (pred m c) (rowAt t j)
  exact (congrArg Cert.KF.RefCols.clip (row0 m c t 2 (by omega) _ j)).trans (Cert.KF.RefCols.col_v6 (pred m c) (rowAt t j)).symm

/-- The predicted height, clipped. -/
theorem leaf_hp : k0_pay7 (View.ld (Val := Elt Ideal) (S := S5x160000) (e' := .f32) (iblk m c 0 t) r0_3) = along (rowAt t) (val_main_v11 (F := Ideal) (pred m c)) := by
  funext j
  show Cert.KF.RefCols.clip (shapeCast S160000 (View.ld (Val := Elt Ideal) (S := S5x160000) (e' := .f32) (iblk m c 0 t) r0_3) shapeCasts_S1x160000_S160000 j) = val_main_v11 (F := Ideal) (pred m c) (rowAt t j)
  exact (congrArg Cert.KF.RefCols.clip (row0 m c t 3 (by omega) _ j)).trans (Cert.KF.RefCols.col_v11 (pred m c) (rowAt t j)).symm

/-- The predicted angle. -/
theorem leaf_rp : k0_pay8 (View.ld (Val := Elt Ideal) (S := S5x160000) (e' := .f32) (iblk m c 0 t) r0_4) = along (rowAt t) (val_main_v4 (F := Ideal) (pred m c)) := by
  funext j
  show shapeCast S160000 (View.ld (Val := Elt Ideal) (S := S5x160000) (e' := .f32) (iblk m c 0 t) r0_4) shapeCasts_S1x160000_S160000 j = val_main_v4 (F := Ideal) (pred m c) (rowAt t j)
  exact ((row0 m c t 4 (by omega) _ j)).trans (Cert.KF.RefCols.col_v4 (pred m c) (rowAt t j)).symm

/-- The target centre's x. -/
theorem leaf_xt : k0_pay9 (View.ld (Val := Elt Ideal) (S := S5x160000) (e' := .f32) (iblk m c 1 t) r0_0) = along (rowAt t) (val_main_v70 (F := Ideal) (targ m c)) := by
  funext j
  show shapeCast S160000 (View.ld (Val := Elt Ideal) (S := S5x160000) (e' := .f32) (iblk m c 1 t) r0_0) shapeCasts_S1x160000_S160000 j = val_main_v70 (F := Ideal) (targ m c) (rowAt t j)
  exact ((row1 m c t 0 (by omega) _ j)).trans (Cert.KF.RefCols.col_v70 (targ m c) (rowAt t j)).symm

/-- The target centre's y. -/
theorem leaf_yt : k0_pay10 (View.ld (Val := Elt Ideal) (S := S5x160000) (e' := .f32) (iblk m c 1 t) r0_1) = along (rowAt t) (val_main_v75 (F := Ideal) (targ m c)) := by
  funext j
  show shapeCast S160000 (View.ld (Val := Elt Ideal) (S := S5x160000) (e' := .f32) (iblk m c 1 t) r0_1) shapeCasts_S1x160000_S160000 j = val_main_v75 (F := Ideal) (targ m c) (rowAt t j)
  exact ((row1 m c t 1 (by omega) _ j)).trans (Cert.KF.RefCols.col_v75 (targ m c) (rowAt t j)).symm

/-- The target width, clipped. -/
theorem leaf_wt : k0_pay11 (View.ld (Val := Elt Ideal) (S := S5x160000) (e' := .f32) (iblk m c 1 t) r0_2) = along (rowAt t) (val_main_v36 (F := Ideal) (targ m c)) := by
  funext j
  show Cert.KF.RefCols.clip (shapeCast S160000 (View.ld (Val := Elt Ideal) (S := S5x160000) (e' := .f32) (iblk m c 1 t) r0_2) shapeCasts_S1x160000_S160000 j) = val_main_v36 (F := Ideal) (targ m c) (rowAt t j)
  exact (congrArg Cert.KF.RefCols.clip (row1 m c t 2 (by omega) _ j)).trans (Cert.KF.RefCols.col_v36 (targ m c) (rowAt t j)).symm

/-- The target height, clipped (the kernel takes the lower bound first and the upper bound in a second step). -/
theorem leaf_ht : k0_pay14 (k0_pay12 (View.ld (Val := Elt Ideal) (S := S5x160000) (e' := .f32) (iblk m c 1 t) r0_3)) (k0_pay13 (F := Ideal)) = along (rowAt t) (val_main_v41 (F := Ideal) (targ m c)) := by
  funext j
  show Cert.KF.RefCols.clip (shapeCast S160000 (View.ld (Val := Elt Ideal) (S := S5x160000) (e' := .f32) (iblk m c 1 t) r0_3) shapeCasts_S1x160000_S160000 j) = val_main_v41 (F := Ideal) (targ m c) (rowAt t j)
  exact (congrArg Cert.KF.RefCols.clip (row1 m c t 3 (by omega) _ j)).trans (Cert.KF.RefCols.col_v41 (targ m c) (rowAt t j)).symm

/-- The target angle. -/
theorem leaf_rt : k0_pay15 (View.ld (Val := Elt Ideal) (S := S5x160000) (e' := .f32) (iblk m c 1 t) r0_4) = along (rowAt t) (val_main_v34 (F := Ideal) (targ m c)) := by
  funext j
  show shapeCast S160000 (View.ld (Val := Elt Ideal) (S := S5x160000) (e' := .f32) (iblk m c 1 t) r0_4) shapeCasts_S1x160000_S160000 j = val_main_v34 (F := Ideal) (targ m c) (rowAt t j)
  exact ((row1 m c t 4 (by omega) _ j)).trans (Cert.KF.RefCols.col_v34 (targ m c) (rowAt t j)).symm

end Cert.KF.Rows

end
-- ==== Proof.Block.lean ====
/-
  From blocks to the two output arrays.

  Each of the kernel's outputs is a `[1, N]` array written a block of 160000 columns at a time, one block per grid
  point, and the 25 blocks tile it. What point `t` writes is the body's result on the rows `t·160000 …`, which the
  stage-by-stage comparison identifies with the reference's per-row loss and per-row ratio read along those rows.
  So after the region the loss array holds the reference's per-row loss, and the ratio array the reference's per-row
  ratio, each laid out as one row of length `N`.
-/
import proofs.«162172_j47528108098029_2_alg».proof.Proof.Rows

set_option maxRecDepth 16384

noncomputable section

namespace Cert.KF.Block

open Idealize.ShloMosaic Idealize.ShloMosaic.TcCoe Idealize.SL.Sem Idealize.ShloMosaic.ValueIdx
open Cert.KernelIdeal Cert.KernelIdeal.Gen Cert.ReferenceIdeal.Read
open Cert.KF.Stages Cert.KF.Rows

/-- The zero offsets of a whole-buffer access, as the constant function. -/
theorem hz : (![0, 0] : Fin 2 → ℕ) = fun _ => 0 := funext fun a => by fin_cases a <;> rfl

variable (a0 a1 : (⟨Cert.ReferenceIdeal.S4000000x5, .f32⟩ : BufTy).Contents (Elt Ideal))

/-- The reference's per-row loss laid out as one row of length `N`. -/
def lossRow : S1x4000000.Idx → EReal := fun y => val_main_v161 (F := Ideal) a0 a1 (ix1 (⟨(y 1).val, (y 1).isLt⟩ : Fin 4000000))
/-- The reference's per-row ratio laid out as one row of length `N`. -/
def iouRow : S1x4000000.Idx → EReal := fun y => val_main_v155 (F := Ideal) a0 a1 (ix1 (⟨(y 1).val, (y 1).isLt⟩ : Fin 4000000))

variable (m : (ℓ : Loc nD τ sig) → Buf (Elt Ideal) ℓ) (c : Dev nD)

section Point
variable (t : Fin cfg0.N)

/-- What the body leaves in the loss window's buffer at point `t`: the reference's loss read along `rowAt t`, as one row. -/
theorem out2_eq : out0_2 (iblk m c 0 t) (iblk m c 1 t)
    = shapeCast S1x160000 (along (rowAt t) (val_main_v161 (F := Ideal) (pred m c) (targ m c))) shapeCasts_S160000_S1x160000 := by
  unfold out0_2
  rw [View.canon_unit_zero hz]
  rw [leaf_xp m c t, leaf_yp m c t, leaf_xt m c t, leaf_yt m c t, leaf_wp m c t, leaf_hp m c t, leaf_rp m c t, leaf_wt m c t, leaf_ht m c t,
    pay20_eq, pay21_eq, pay22_eq, pay27_eq (targ m c) (rowAt t) _ _ _ (leaf_ht m c t) (leaf_rt m c t),
    pay28_eq (targ m c) (rowAt t) _ _ _ (leaf_ht m c t) (leaf_rt m c t),
    pay29_eq (targ m c) (rowAt t) _ _ _ (leaf_ht m c t) (leaf_rt m c t),
    pay35_eq, pay36_eq, pay48_eq, pay49_eq, pay50_eq,
    pay31_eq (targ m c) (rowAt t) _ _ _ (leaf_ht m c t) (leaf_rt m c t),
    pay32_eq (targ m c) (rowAt t) _ _ _ (leaf_ht m c t) (leaf_rt m c t),
    pay33_eq (targ m c) (rowAt t) _ _ _ (leaf_ht m c t) (leaf_rt m c t),
    pay34_eq, pay2_eq]

/-- WHAT POINT `t` WRITES BACK is block `t` of the loss row. -/
theorem flushed2_eq : (dats m 0 c).flushed 2 t
    = ((cfg0.win 2).blk t).view.read (Elt Ideal) (lossRow (pred m c) (targ m c)) := by
  show (cfg0.win 2).cut (grid0.coords t) ((dats m 0 c).after 2 t) = _
  rw [after0_2, out2_eq]
  obtain ⟨-, -, -, -, f0, f1, g0, g1⟩ := idx_facts t
  funext y
  obtain ⟨u, q, rfl⟩ : ∃ (u : Fin 1) (q : Fin 160000), y = ix2 u q := ⟨y 0, y 1, eq_ix2 y⟩
  show shapeCast S1x160000 (along (rowAt t) (val_main_v161 (F := Ideal) (pred m c) (targ m c))) shapeCasts_S160000_S1x160000 (ix2 u q)
    = lossRow (pred m c) (targ m c) (((cfg0.win 2).blk t).view.emb (ix2 u q))
  rw [shapeCast_a_1a_apply]
  show val_main_v161 (F := Ideal) (pred m c) (targ m c) (rowAt t (ix1 q)) = val_main_v161 (F := Ideal) (pred m c) (targ m c) _
  refine congrArg _ (funext fun a => Fin.ext ?_)
  match a with
  | ⟨0, _⟩ => show t.val * 160000 + q.val = win0_2.index t (1 : Fin 2) * 160000 + 1 * q.val; rw [f1]; omega

/-- An index of the `[1, N]` array is in point `t`'s block iff each coordinate is in the block's range. -/
theorem mem_blk2 (i : S1x4000000.Idx) :
    i ∈ ((cfg0.win 2).blk t).view.set ↔ ∀ a : Fin 2, win0_2.index t a * S1x160000.size a ≤ (i a).val ∧ (i a).val < win0_2.index t a * S1x160000.size a + S1x160000.size a := by
  show i ∈ ((View.whole main_v2_0).slice (win0_2.rect t)).set ↔ _
  rw [View.set_slice_whole, Rect.mem_set_unit]
  exact Iff.rfl

/-- What the body leaves in the ratio window's buffer at point `t`: the reference's ratio read along `rowAt t`, as one row. -/
theorem out3_eq : out0_3 (iblk m c 0 t) (iblk m c 1 t)
    = shapeCast S1x160000 (along (rowAt t) (val_main_v155 (F := Ideal) (pred m c) (targ m c))) shapeCasts_S160000_S1x160000 := by
  unfold out0_3
  rw [View.canon_unit_zero hz]
  rw [leaf_wp m c t, leaf_hp m c t, leaf_rp m c t, leaf_wt m c t, leaf_ht m c t,
    pay20_eq, pay21_eq, pay22_eq, pay27_eq (targ m c) (rowAt t) _ _ _ (leaf_ht m c t) (leaf_rt m c t),
    pay28_eq (targ m c) (rowAt t) _ _ _ (leaf_ht m c t) (leaf_rt m c t),
    pay29_eq (targ m c) (rowAt t) _ _ _ (leaf_ht m c t) (leaf_rt m c t),
    pay35_eq, pay36_eq, pay48_eq, pay49_eq, pay50_eq, pay3_eq]

/-- WHAT POINT `t` WRITES BACK is block `t` of the ratio row. -/
theorem flushed3_eq : (dats m 0 c).flushed 3 t
    = ((cfg0.win 3).blk t).view.read (Elt Ideal) (iouRow (pred m c) (targ m c)) := by
  show (cfg0.win 3).cut (grid0.coords t) ((dats m 0 c).after 3 t) = _
  rw [after0_3, out3_eq]
  obtain ⟨-, -, -, -, f0, f1, g0, g1⟩ := idx_facts t
  funext y
  obtain ⟨u, q, rfl⟩ : ∃ (u : Fin 1) (q : Fin 160000), y = ix2 u q := ⟨y 0, y 1, eq_ix2 y⟩
  show shapeCast S1x160000 (along (rowAt t) (val_main_v155 (F := Ideal) (pred m c) (targ m c))) shapeCasts_S160000_S1x160000 (ix2 u q)
    = iouRow (pred m c) (targ m c) (((cfg0.win 3).blk t).view.emb (ix2 u q))
  rw [shapeCast_a_1a_apply]
  show val_main_v155 (F := Ideal) (pred m c) (targ m c) (rowAt t (ix1 q)) = val_main_v155 (F := Ideal) (pred m c) (targ m c) _
  refine congrArg _ (funext fun a => Fin.ext ?_)
  match a with
  | ⟨0, _⟩ => show t.val * 160000 + q.val = win0_3.index t (1 : Fin 2) * 160000 + 1 * q.val; rw [g1]; omega

/-- An index of the `[1, N]` array is in point `t`'s block iff each coordinate is in the block's range. -/
theorem mem_blk3 (i : S1x4000000.Idx) :
    i ∈ ((cfg0.win 3).blk t).view.set ↔ ∀ a : Fin 2, win0_3.index t a * S1x160000.size a ≤ (i a).val ∧ (i a).val < win0_3.index t a * S1x160000.size a + S1x160000.size a := by
  show i ∈ ((View.whole main_v2_1).slice (win0_3.rect t)).set ↔ _
  rw [View.set_slice_whole, Rect.mem_set_unit]
  exact Iff.rfl

end Point

/-- Every entry of the loss array is written by the point whose number is its column divided by 160000. -/
theorem cover2 (i : S1x4000000.Idx) : ∃ t : Fin cfg0.N, (cfg0.win 2).flush t = true ∧ i ∈ ((cfg0.win 2).blk t).view.set := by
  have hi0 : (i 0).val < 1 := (i 0).isLt
  have hi1 : (i 1).val < 4000000 := (i 1).isLt
  have hN : (i 1).val / 160000 < cfg0.N := by show _ < grid0.N; rw [N_0]; omega
  obtain ⟨-, -, -, -, f0, f1, g0, g1⟩ := idx_facts ⟨(i 1).val / 160000, hN⟩
  refine ⟨⟨(i 1).val / 160000, hN⟩, flush0_2 _, ?_⟩
  rw [mem_blk2]
  intro a
  match a with
  | ⟨0, _⟩ =>
    show win0_2.index ⟨(i 1).val / 160000, hN⟩ (0 : Fin 2) * 1 ≤ (i 0).val ∧ (i 0).val < win0_2.index ⟨(i 1).val / 160000, hN⟩ (0 : Fin 2) * 1 + 1
    rw [f0]; omega
  | ⟨1, _⟩ =>
    show win0_2.index ⟨(i 1).val / 160000, hN⟩ (1 : Fin 2) * 160000 ≤ (i 1).val ∧ (i 1).val < win0_2.index ⟨(i 1).val / 160000, hN⟩ (1 : Fin 2) * 160000 + 160000
    rw [f1]
    show (i 1).val / 160000 * 160000 ≤ (i 1).val ∧ (i 1).val < (i 1).val / 160000 * 160000 + 160000
    omega

/-- THE LOSS ARRAY after the region: the reference's loss, as one row. -/
theorem final2 : (dats m 0 c).arrAt 2 cfg0.N = lossRow (pred m c) (targ m c) :=
  (dats m 0 c).arrAt_eq_of_cover 2 (lossRow (pred m c) (targ m c)) (fun t _ => flushed2_eq m c t) cover2

/-- Every entry of the ratio array is written by the point whose number is its column divided by 160000. -/
theorem cover3 (i : S1x4000000.Idx) : ∃ t : Fin cfg0.N, (cfg0.win 3).flush t = true ∧ i ∈ ((cfg0.win 3).blk t).view.set := by
  have hi0 : (i 0).val < 1 := (i 0).isLt
  have hi1 : (i 1).val < 4000000 := (i 1).isLt
  have hN : (i 1).val / 160000 < cfg0.N := by show _ < grid0.N; rw [N_0]; omega
  obtain ⟨-, -, -, -, f0, f1, g0, g1⟩ := idx_facts ⟨(i 1).val / 160000, hN⟩
  refine ⟨⟨(i 1).val / 160000, hN⟩, flush0_3 _, ?_⟩
  rw [mem_blk3]
  intro a
  match a with
  | ⟨0, _⟩ =>
    show win0_3.index ⟨(i 1).val / 160000, hN⟩ (0 : Fin 2) * 1 ≤ (i 0).val ∧ (i 0).val < win0_3.index ⟨(i 1).val / 160000, hN⟩ (0 : Fin 2) * 1 + 1
    rw [g0]; omega
  | ⟨1, _⟩ =>
    show win0_3.index ⟨(i 1).val / 160000, hN⟩ (1 : Fin 2) * 160000 ≤ (i 1).val ∧ (i 1).val < win0_3.index ⟨(i 1).val / 160000, hN⟩ (1 : Fin 2) * 160000 + 160000
    rw [g1]
    show (i 1).val / 160000 * 160000 ≤ (i 1).val ∧ (i 1).val < (i 1).val / 160000 * 160000 + 160000
    omega

/-- THE RATIO ARRAY after the region: the reference's ratio, as one row. -/
theorem final3 : (dats m 0 c).arrAt 3 cfg0.N = iouRow (pred m c) (targ m c) :=
  (dats m 0 c).arrAt_eq_of_cover 3 (iouRow (pred m c) (targ m c)) (fun t _ => flushed3_eq m c t) cover3

end Cert.KF.Block

end
-- ==== Proof.Tail.lean ====
/-
  The host lines after the region, and the kernel program's run with its results named.

  After the region the host drops the unit axis of each `[1, N]` output, returns the ratio array as it is, and takes
  the loss array's mean: the sum of its `N` entries from `0`, divided by `4·10⁶`. The reference ends with the very
  same two operations on its own per-row loss. Since the region leaves the reference's per-row loss and ratio (laid out
  as rows), dropping the unit axis gives them back, and the two means are one expression of one array.
-/
import proofs.«162172_j47528108098029_2_alg».proof.Proof.Block

set_option maxRecDepth 16384

noncomputable section

namespace Cert.KF.Tail

open Idealize.ShloMosaic Idealize.ShloMosaic.TcCoe Idealize.SL.Sem Idealize.ShloMosaic.ValueIdx
open Cert.KernelIdeal Cert.KernelIdeal.Gen Cert.ReferenceIdeal.Read
open Cert.KF.Rows Cert.KF.Block

variable (a0 a1 : (⟨Cert.ReferenceIdeal.S4000000x5, .f32⟩ : BufTy).Contents (Elt Ideal))

/-- The loss row with its unit axis dropped is the reference's per-row loss. -/
theorem loss_unrow : shapeCast S4000000 (lossRow a0 a1) shapeCasts_S1x4000000_S4000000 = val_main_v161 (F := Ideal) a0 a1 := by
  funext i
  obtain ⟨n, rfl⟩ : ∃ n : Fin 4000000, i = ix1 n := ⟨i 0, eq_ix1 i⟩
  rw [shapeCast_1a_a_apply]
  rfl

/-- The ratio row with its unit axis dropped is the reference's per-row ratio. -/
theorem iou_unrow : shapeCast S4000000 (iouRow a0 a1) shapeCasts_S1x4000000_S4000000 = val_main_v155 (F := Ideal) a0 a1 := by
  funext i
  obtain ⟨n, rfl⟩ : ∃ n : Fin 4000000, i = ix1 n := ⟨i 0, eq_ix1 i⟩
  rw [shapeCast_1a_a_apply]
  rfl

variable (m : (ℓ : Loc nD τ sig) → Buf (Elt Ideal) ℓ) (c : Dev nD)

/-- The second result, the ratio array, after the host lines: the reference's per-row ratio. -/
theorem tail_v4 : Pipeline.afterTail₀ cfgs (dats m) 0 (V0 m) [hostOps1] c main_v4
    = val_main_v155 (F := Ideal) (pred m c) (targ m c) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v2_1)
      = iouRow (pred m c) (targ m c) from (Pipeline.withArrays_arr spec0 launch0.win.arr_inj c _ _ 3).trans (final3 m c)]
  exact iou_unrow (pred m c) (targ m c)

/-- The first result, the mean loss, after the host lines: the reference's mean of its per-row loss. -/
theorem tail_v6 : Pipeline.afterTail₀ cfgs (dats m) 0 (V0 m) [hostOps1] c main_v6
    = val_main_v163 (F := Ideal) (pred m c) (targ m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v2_0)
      = lossRow (pred m c) (targ m c) from (Pipeline.withArrays_arr spec0 launch0.win.arr_inj c _ _ 2).trans (final2 m c)]
  unfold val_main_v163 val_main_v162
  congr 2
  exact loss_unrow (pred m c) (targ m c)

/-- THE KERNEL PROGRAM'S RUN, its results named: every weakly fair execution terminates with the first result at the
    reference's mean loss of the two arguments, the second at the reference's array of ratios, and the arguments as
    they were. -/
theorem run (ρ : Dev nD → PrngReg) :
    θ_run defs (onTc (τ := τ) (main (F := Ideal))) ⟨m, fun _ => 0, ρ⟩ fun r => ∀ c : Dev nD,
      r.2.mem ((c.tc : Thread nD τ).loc main_v6) = val_main_v163 (F := Ideal) (pred m c) (targ m c)
      ∧ r.2.mem ((c.tc : Thread nD τ).loc main_v4) = val_main_v155 (F := Ideal) (pred m c) (targ m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v6 (Pipeline.mem_restRefs_of main_v6 (by decide) (by decide))).trans (tail_v6 m c),
      ((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KF.Tail

end
-- ==== Proof.lean ====
/-
  Per-row Kalman-filter IoU loss of rotated boxes: the kernel against its jnp reference, over the extended reals.

  Inputs are two `[N, 5]` arrays of boxes `(x, y, w, h, r)`, `N = 4000000`. For each row both programs compute, with the
  same operations in the same order and the same f32 constants: the clipped sizes, each box's covariance
  `Σ = R diag((w/2)², (h/2)²) Rᵀ` entry by entry, the centre term `log (dᵀ Σt⁻¹ d + 1)`, the fused covariance
  `Σp − Σp (Σp + Σt)⁻¹ Σp`, `Vb = 4·√(its determinant, clamped at 0)`, the ratio `Vb / (Vb_p + Vb_t − 3 Vb + ε)`, and
  the loss `max 0 (centre term − log (ratio + ε))`. They return the mean of the loss over the rows and the array of ratios.

  The kernel differs in layout only: the host transposes the inputs to `[5, N]`, the kernel works on 25 blocks of 160000
  rows and writes two `[1, N]` arrays, and the host drops their unit axis and takes the mean. At the ideal instance a
  change of layout changes no value, the vector unit's and the host's operations are the same functions, and the one
  textual difference — the kernel writes `0 − x` for the reference's `−x` — is an identity on every extended real. So no
  input needs to be finite for the two results to agree: the precondition is not used.

  Modules: Stages (the body's arithmetic against the reference's, stage by stage, along any map of rows), RefColumns and
  Rows (the ten per-row inputs on each side), Block (each output array after the region), Tail (the host lines after it
  and the kernel program's run), RefRead / RefRun (the reference's operations and run), LibRowBlock (a row of a buffer).
-/
import proofs.«162172_j47528108098029_2_alg».proof.Defs
import proofs.«162172_j47528108098029_2_alg».proof.Proof.Gen.Kernel
import proofs.«162172_j47528108098029_2_alg».proof.Proof.Gen.Kernel.Skeleton
import proofs.«162172_j47528108098029_2_alg».proof.Proof.Gen.Kernel.Launch
import proofs.«162172_j47528108098029_2_alg».proof.Proof.Gen.Kernel.Points
import proofs.«162172_j47528108098029_2_alg».proof.Proof.Gen.Kernel.Frame
import proofs.«162172_j47528108098029_2_alg».proof.Proof.Gen.KernelIdeal
import proofs.«162172_j47528108098029_2_alg».proof.Proof.Gen.KernelIdeal.Skeleton
import proofs.«162172_j47528108098029_2_alg».proof.Proof.Gen.KernelIdeal.Launch
import proofs.«162172_j47528108098029_2_alg».proof.Proof.Gen.KernelIdeal.Points
import proofs.«162172_j47528108098029_2_alg».proof.Proof.Gen.KernelIdeal.Frame
import proofs.«162172_j47528108098029_2_alg».proof.Proof.Gen.ReferenceIdeal
import proofs.«162172_j47528108098029_2_alg».proof.Proof.Gen.Pre_finite_inputs
import proofs.«162172_j47528108098029_2_alg».proof.Proof.RefRun
import proofs.«162172_j47528108098029_2_alg».proof.Proof.Tail
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Run from memories that agree on the two arguments, the idealized kernel and the idealized reference end with the
    same mean loss and the same array of ratios: both are the reference's expressions of the arguments. -/
theorem algebraic : Cert.algebraic_KernelIdeal_ReferenceIdeal := by
  intro m ρ m' ρ' _ hagree
  refine ⟨fun c => Cert.ReferenceIdeal.Read.val_main_v163 (F := Ideal) (Cert.KF.Rows.pred m c) (Cert.KF.Rows.targ m c),
    fun c => Cert.ReferenceIdeal.Read.val_main_v155 (F := Ideal) (Cert.KF.Rows.pred m c) (Cert.KF.Rows.targ m c),
    Cert.KF.Tail.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, (hagree c).1, (hagree c).2]
  · rw [(h c).2.1, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
